-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x256x256 : Shape := ⟨4, ![128, 1, 256, 256]⟩
abbrev S_ : Shape := ⟨0, ![]⟩

class Facts : Prop where
  bcast_S_S128x1x256x256 : S_.BroadcastsInDim S128x1x256x256 (![] : Fin 0 → Fin S128x1x256x256.rank)
  reducesTo_S128x1x256x256_S_d0_1_2_3 : S128x1x256x256.ReducesTo [0, 1, 2, 3] S_
  h_S_ : 0 < S_.numel

variable [Facts]

def fn {F : FTy → Type} [FloatOps F] (main_arg0 : FVec F S128x1x256x256 .f32) : IVec S_ 1 :=
  let main_v0 : FVec F S128x1x256x256 .f32 := Host.absf main_arg0
  let main_cst : FVec F S_ .f32 := constant S_ .f32 0x7F800000#32
  let main_v1 : FVec F S128x1x256x256 .f32 := broadcastInDim S128x1x256x256 ![] bcast_S_S128x1x256x256 main_cst
  let main_v2 : IVec S128x1x256x256 1 := cmpf .olt main_v0 main_v1
  let main_c : IVec S_ 1 := constantI S_ 1 1#1
  let main_v3 : IVec S_ 1 := (fun x v => Host.reduce IntOp.andi x v reducesTo_S128x1x256x256_S_d0_1_2_3 h_S_) main_v2 main_c
  main_v3
-- ==== Kernel.lean ====
abbrev S128x1x256x256 : Shape := ⟨4, ![128, 1, 256, 256]⟩
abbrev S128x256x256 : Shape := ⟨3, ![128, 256, 256]⟩
abbrev S128x128x2x128x2 : Shape := ⟨5, ![128, 128, 2, 128, 2]⟩
abbrev S128x2x2x128x128 : Shape := ⟨5, ![128, 2, 2, 128, 128]⟩
abbrev S128x126x126x36 : Shape := ⟨4, ![128, 126, 126, 36]⟩
abbrev S1x2x2x128x128 : Shape := ⟨5, ![1, 2, 2, 128, 128]⟩
abbrev S1x126x126x36 : Shape := ⟨4, ![1, 126, 126, 36]⟩
abbrev S2x2x128x128 : Shape := ⟨4, ![2, 2, 128, 128]⟩
abbrev S1x1x126x126 : Shape := ⟨4, ![1, 1, 126, 126]⟩
abbrev S126x126 : Shape := ⟨2, ![126, 126]⟩
abbrev S126x126x1 : Shape := ⟨3, ![126, 126, 1]⟩
abbrev S126x126x36 : Shape := ⟨3, ![126, 126, 36]⟩
abbrev S128x15876x36 : Shape := ⟨3, ![128, 15876, 36]⟩

abbrev nBuf : Space → Nat
  | .hbm => 6
  | .vmem => 4
  | .smem => 0
  | _ => 0

abbrev bufTy : (tb : Table) → Fin (tcTables nBuf tb) → BufTy
  | .hbm, ⟨0, _⟩ => ⟨S128x1x256x256, .f32⟩
  | .hbm, ⟨1, _⟩ => ⟨S128x256x256, .f32⟩
  | .hbm, ⟨2, _⟩ => ⟨S128x128x2x128x2, .f32⟩
  | .hbm, ⟨3, _⟩ => ⟨S128x2x2x128x128, .f32⟩
  | .hbm, ⟨4, _⟩ => ⟨S128x126x126x36, .f32⟩
  | .hbm, ⟨5, _⟩ => ⟨S128x15876x36, .f32⟩
  | .local _ .vmem, ⟨0, _⟩ => ⟨S1x2x2x128x128, .f32⟩
  | .local _ .vmem, ⟨1, _⟩ => ⟨S1x2x2x128x128, .f32⟩
  | .local _ .vmem, ⟨2, _⟩ => ⟨S1x126x126x36, .f32⟩
  | .local _ .vmem, ⟨3, _⟩ => ⟨S1x126x126x36, .f32⟩
  | _, _ => ⟨S128x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x126x126x36 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x1x256x256_S128x256x256 : S128x1x256x256.ShapeCasts S128x256x256
  shapeCasts_S128x256x256_S128x128x2x128x2 : S128x256x256.ShapeCasts S128x128x2x128x2
  transposes_S128x128x2x128x2_S128x2x2x128x128_0_2_4_1_3 : S128x128x2x128x2.Transposes [0, 2, 4, 1, 3] S128x2x2x128x128
  inb_S1x2x2x128x128_S1x2x2x128x128_0_0_0_0_0 : ∀ a, (![0, 0, 0, 0, 0] : Fin 5 → Nat) a + S1x2x2x128x128.size a ≤ S1x2x2x128x128.size a
  h_S1x2x2x128x128 : 0 < S1x2x2x128x128.numel
  shapeCasts_S1x2x2x128x128_S2x2x128x128 : S1x2x2x128x128.ShapeCasts S2x2x128x128
  slices_S2x2x128x128_o0_0_0_0_S1x1x126x126 : S2x2x128x128.Slices ![0, 0, 0, 0] S1x1x126x126
  shapeCasts_S1x1x126x126_S126x126 : S1x1x126x126.ShapeCasts S126x126
  shapeCasts_S126x126_S126x126x1 : S126x126.ShapeCasts S126x126x1
  slices_S2x2x128x128_o0_1_0_0_S1x1x126x126 : S2x2x128x128.Slices ![0, 1, 0, 0] S1x1x126x126
  slices_S2x2x128x128_o0_0_0_1_S1x1x126x126 : S2x2x128x128.Slices ![0, 0, 0, 1] S1x1x126x126
  slices_S2x2x128x128_o0_1_0_1_S1x1x126x126 : S2x2x128x128.Slices ![0, 1, 0, 1] S1x1x126x126
  slices_S2x2x128x128_o0_0_0_2_S1x1x126x126 : S2x2x128x128.Slices ![0, 0, 0, 2] S1x1x126x126
  slices_S2x2x128x128_o0_1_0_2_S1x1x126x126 : S2x2x128x128.Slices ![0, 1, 0, 2] S1x1x126x126
  slices_S2x2x128x128_o1_0_0_0_S1x1x126x126 : S2x2x128x128.Slices ![1, 0, 0, 0] S1x1x126x126
  slices_S2x2x128x128_o1_1_0_0_S1x1x126x126 : S2x2x128x128.Slices ![1, 1, 0, 0] S1x1x126x126
  slices_S2x2x128x128_o1_0_0_1_S1x1x126x126 : S2x2x128x128.Slices ![1, 0, 0, 1] S1x1x126x126
  slices_S2x2x128x128_o1_1_0_1_S1x1x126x126 : S2x2x128x128.Slices ![1, 1, 0, 1] S1x1x126x126
  slices_S2x2x128x128_o1_0_0_2_S1x1x126x126 : S2x2x128x128.Slices ![1, 0, 0, 2] S1x1x126x126
  slices_S2x2x128x128_o1_1_0_2_S1x1x126x126 : S2x2x128x128.Slices ![1, 1, 0, 2] S1x1x126x126
  slices_S2x2x128x128_o0_0_1_0_S1x1x126x126 : S2x2x128x128.Slices ![0, 0, 1, 0] S1x1x126x126
  slices_S2x2x128x128_o0_1_1_0_S1x1x126x126 : S2x2x128x128.Slices ![0, 1, 1, 0] S1x1x126x126
  slices_S2x2x128x128_o0_0_1_1_S1x1x126x126 : S2x2x128x128.Slices ![0, 0, 1, 1] S1x1x126x126
  slices_S2x2x128x128_o0_1_1_1_S1x1x126x126 : S2x2x128x128.Slices ![0, 1, 1, 1] S1x1x126x126
  slices_S2x2x128x128_o0_0_1_2_S1x1x126x126 : S2x2x128x128.Slices ![0, 0, 1, 2] S1x1x126x126
  slices_S2x2x128x128_o0_1_1_2_S1x1x126x126 : S2x2x128x128.Slices ![0, 1, 1, 2] S1x1x126x126
  slices_S2x2x128x128_o1_0_1_0_S1x1x126x126 : S2x2x128x128.Slices ![1, 0, 1, 0] S1x1x126x126
  slices_S2x2x128x128_o1_1_1_0_S1x1x126x126 : S2x2x128x128.Slices ![1, 1, 1, 0] S1x1x126x126
  slices_S2x2x128x128_o1_0_1_1_S1x1x126x126 : S2x2x128x128.Slices ![1, 0, 1, 1] S1x1x126x126
  slices_S2x2x128x128_o1_1_1_1_S1x1x126x126 : S2x2x128x128.Slices ![1, 1, 1, 1] S1x1x126x126
  slices_S2x2x128x128_o1_0_1_2_S1x1x126x126 : S2x2x128x128.Slices ![1, 0, 1, 2] S1x1x126x126
  slices_S2x2x128x128_o1_1_1_2_S1x1x126x126 : S2x2x128x128.Slices ![1, 1, 1, 2] S1x1x126x126
  slices_S2x2x128x128_o0_0_2_0_S1x1x126x126 : S2x2x128x128.Slices ![0, 0, 2, 0] S1x1x126x126
  slices_S2x2x128x128_o0_1_2_0_S1x1x126x126 : S2x2x128x128.Slices ![0, 1, 2, 0] S1x1x126x126
  slices_S2x2x128x128_o0_0_2_1_S1x1x126x126 : S2x2x128x128.Slices ![0, 0, 2, 1] S1x1x126x126
  slices_S2x2x128x128_o0_1_2_1_S1x1x126x126 : S2x2x128x128.Slices ![0, 1, 2, 1] S1x1x126x126
  slices_S2x2x128x128_o0_0_2_2_S1x1x126x126 : S2x2x128x128.Slices ![0, 0, 2, 2] S1x1x126x126
  slices_S2x2x128x128_o0_1_2_2_S1x1x126x126 : S2x2x128x128.Slices ![0, 1, 2, 2] S1x1x126x126
  slices_S2x2x128x128_o1_0_2_0_S1x1x126x126 : S2x2x128x128.Slices ![1, 0, 2, 0] S1x1x126x126
  slices_S2x2x128x128_o1_1_2_0_S1x1x126x126 : S2x2x128x128.Slices ![1, 1, 2, 0] S1x1x126x126
  slices_S2x2x128x128_o1_0_2_1_S1x1x126x126 : S2x2x128x128.Slices ![1, 0, 2, 1] S1x1x126x126
  slices_S2x2x128x128_o1_1_2_1_S1x1x126x126 : S2x2x128x128.Slices ![1, 1, 2, 1] S1x1x126x126
  slices_S2x2x128x128_o1_0_2_2_S1x1x126x126 : S2x2x128x128.Slices ![1, 0, 2, 2] S1x1x126x126
  slices_S2x2x128x128_o1_1_2_2_S1x1x126x126 : S2x2x128x128.Slices ![1, 1, 2, 2] S1x1x126x126
  concatenates_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x1_S126x126x36_d2 : Shape.Concatenates (S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: S126x126x1 :: []) S126x126x36 2
  inb_S1x126x126x36_S1x126x126x36_0_0_0_0 : ∀ a, (![0, 0, 0, 0] : Fin 4 → Nat) a + S1x126x126x36.size a ≤ S1x126x126x36.size a
  h_S1x126x126x36 : 0 < S1x126x126x36.numel
  shapeCasts_S1x126x126x36_S126x126x36 : S1x126x126x36.ShapeCasts S126x126x36
  shapeCasts_S126x126x36_S1x126x126x36 : S126x126x36.ShapeCasts S1x126x126x36
  shapeCasts_S128x126x126x36_S128x15876x36 : S128x126x126x36.ShapeCasts S128x15876x36
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x2x128x128.size a ≤ S128x2x2x128x128.size a
  hwx0_0 : ∀ i : grid0.Coords, EltTy.bits .f32 = 32 ∨ (Rect.block (s := S128x2x2x128x128) S1x2x2x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x126x126x36.size a ≤ S128x126x126x36.size a
  hwx0_1 : ∀ i : grid0.Coords, EltTy.bits .f32 = 32 ∨ (Rect.block (s := S128x126x126x36) S1x126x126x36.size (cc0_transform_1 i) (hinb0_1 i)).WholeWords (EltTy.packing .f32)

variable [Facts₀]

abbrev win0_0 : Pipeline.Window sig grid0 :=
  Pipeline.Window.ofSpec (Memref.whole main_v2) S1x2x2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x126x126x36.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x1x256x256 : Shape := ⟨4, ![128, 1, 256, 256]⟩
abbrev S126 : Shape := ⟨1, ![126]⟩
abbrev S6 : Shape := ⟨1, ![6]⟩
abbrev S126x1 : Shape := ⟨2, ![126, 1]⟩
abbrev S1x6 : Shape := ⟨2, ![1, 6]⟩
abbrev S126x6 : Shape := ⟨2, ![126, 6]⟩
abbrev S128x256x256 : Shape := ⟨3, ![128, 256, 256]⟩
abbrev S126x1x6x1 : Shape := ⟨4, ![126, 1, 6, 1]⟩
abbrev S1x126x1x6 : Shape := ⟨4, ![1, 126, 1, 6]⟩
abbrev S_ : Shape := ⟨0, ![]⟩
abbrev S126x126x6x6 : Shape := ⟨4, ![126, 126, 6, 6]⟩
abbrev S126x126x6x6x1 : Shape := ⟨5, ![126, 126, 6, 6, 1]⟩
abbrev S126x126x6x6x2 : Shape := ⟨5, ![126, 126, 6, 6, 2]⟩
abbrev S128x126x126x6x6 : Shape := ⟨5, ![128, 126, 126, 6, 6]⟩
abbrev S128x15876x36 : Shape := ⟨3, ![128, 15876, 36]⟩

abbrev nBuf : Space → Nat
  | .hbm => 37
  | .vmem => 0
  | .smem => 0
  | _ => 0

abbrev bufTy : (tb : Table) → Fin (tcTables nBuf tb) → BufTy
  | .hbm, ⟨0, _⟩ => ⟨S128x1x256x256, .f32⟩
  | .hbm, ⟨1, _⟩ => ⟨S126, .i32⟩
  | .hbm, ⟨2, _⟩ => ⟨S6, .i32⟩
  | .hbm, ⟨3, _⟩ => ⟨S126x1, .i32⟩
  | .hbm, ⟨4, _⟩ => ⟨S1x6, .i32⟩
  | .hbm, ⟨5, _⟩ => ⟨S126x6, .i32⟩
  | .hbm, ⟨6, _⟩ => ⟨S126x6, .i32⟩
  | .hbm, ⟨7, _⟩ => ⟨S126x6, .i32⟩
  | .hbm, ⟨8, _⟩ => ⟨S126x1, .i32⟩
  | .hbm, ⟨9, _⟩ => ⟨S1x6, .i32⟩
  | .hbm, ⟨10, _⟩ => ⟨S126x6, .i32⟩
  | .hbm, ⟨11, _⟩ => ⟨S126x6, .i32⟩
  | .hbm, ⟨12, _⟩ => ⟨S126x6, .i32⟩
  | .hbm, ⟨13, _⟩ => ⟨S128x256x256, .f32⟩
  | .hbm, ⟨14, _⟩ => ⟨S126x1x6x1, .i32⟩
  | .hbm, ⟨15, _⟩ => ⟨S1x126x1x6, .i32⟩
  | .hbm, ⟨16, _⟩ => ⟨S_, .i32⟩
  | .hbm, ⟨17, _⟩ => ⟨S126x1x6x1, .i32⟩
  | .hbm, ⟨18, _⟩ => ⟨S126x1x6x1, .i1⟩
  | .hbm, ⟨19, _⟩ => ⟨S_, .i32⟩
  | .hbm, ⟨20, _⟩ => ⟨S126x1x6x1, .i32⟩
  | .hbm, ⟨21, _⟩ => ⟨S126x1x6x1, .i32⟩
  | .hbm, ⟨22, _⟩ => ⟨S126x1x6x1, .i32⟩
  | .hbm, ⟨23, _⟩ => ⟨S_, .i32⟩
  | .hbm, ⟨24, _⟩ => ⟨S1x126x1x6, .i32⟩
  | .hbm, ⟨25, _⟩ => ⟨S1x126x1x6, .i1⟩
  | .hbm, ⟨26, _⟩ => ⟨S_, .i32⟩
  | .hbm, ⟨27, _⟩ => ⟨S1x126x1x6, .i32⟩
  | .hbm, ⟨28, _⟩ => ⟨S1x126x1x6, .i32⟩
  | .hbm, ⟨29, _⟩ => ⟨S1x126x1x6, .i32⟩
  | .hbm, ⟨30, _⟩ => ⟨S126x126x6x6, .i32⟩
  | .hbm, ⟨31, _⟩ => ⟨S126x126x6x6, .i32⟩
  | .hbm, ⟨32, _⟩ => ⟨S126x126x6x6x1, .i32⟩
  | .hbm, ⟨33, _⟩ => ⟨S126x126x6x6x1, .i32⟩
  | .hbm, ⟨34, _⟩ => ⟨S126x126x6x6x2, .i32⟩
  | .hbm, ⟨35, _⟩ => ⟨S128x126x126x6x6, .f32⟩
  | .hbm, ⟨36, _⟩ => ⟨S128x15876x36, .f32⟩
  | _, _ => ⟨S128x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_c_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]

class Facts₀ : Prop where
  bcast_S126_S126x1_0 : S126.BroadcastsInDim S126x1 (![0] : Fin 1 → Fin S126x1.rank)
  bcast_S6_S1x6_1 : S6.BroadcastsInDim S1x6 (![1] : Fin 1 → Fin S1x6.rank)
  bcast_S126x1_S126x6_0_1 : S126x1.BroadcastsInDim S126x6 (![0, 1] : Fin 2 → Fin S126x6.rank)
  bcast_S1x6_S126x6_0_1 : S1x6.BroadcastsInDim S126x6 (![0, 1] : Fin 2 → Fin S126x6.rank)
  shapeCasts_S128x1x256x256_S128x256x256 : S128x1x256x256.ShapeCasts S128x256x256
  bcast_S126x6_S126x1x6x1_0_2 : S126x6.BroadcastsInDim S126x1x6x1 (![0, 2] : Fin 2 → Fin S126x1x6x1.rank)
  bcast_S126x6_S1x126x1x6_1_3 : S126x6.BroadcastsInDim S1x126x1x6 (![1, 3] : Fin 2 → Fin S1x126x1x6.rank)
  bcast_S_S126x1x6x1 : S_.BroadcastsInDim S126x1x6x1 (![] : Fin 0 → Fin S126x1x6x1.rank)
  bcast_S_S1x126x1x6 : S_.BroadcastsInDim S1x126x1x6 (![] : Fin 0 → Fin S1x126x1x6.rank)
  bcast_S126x1x6x1_S126x126x6x6_0_1_2_3 : S126x1x6x1.BroadcastsInDim S126x126x6x6 (![0, 1, 2, 3] : Fin 4 → Fin S126x126x6x6.rank)
  bcast_S1x126x1x6_S126x126x6x6_0_1_2_3 : S1x126x1x6.BroadcastsInDim S126x126x6x6 (![0, 1, 2, 3] : Fin 4 → Fin S126x126x6x6.rank)
  bcast_S126x126x6x6_S126x126x6x6x1_0_1_2_3 : S126x126x6x6.BroadcastsInDim S126x126x6x6x1 (![0, 1, 2, 3] : Fin 4 → Fin S126x126x6x6x1.rank)
  concatenates_S126x126x6x6x1_S126x126x6x6x1_S126x126x6x6x2_d4 : Shape.Concatenates [S126x126x6x6x1, S126x126x6x6x1] S126x126x6x6x2 4
  shapeCasts_S128x126x126x6x6_S128x15876x36 : S128x126x126x6x6.ShapeCasts S128x15876x36
  gather_S128x256x256_S126x126x6x6x2_S128x126x126x6x6_0_12_n_n_12_4_12811_wf : GatherDims.WF S128x256x256 S126x126x6x6x2 S128x126x126x6x6 [0] [1, 2] [] [1, 2] [] 4 ![128, 1, 1]

variable [Facts₀]

def gather_S128x256x256_S126x126x6x6x2_S128x126x126x6x6_0_12_n_n_12_4_12811 : GatherDims S128x256x256 S126x126x6x6x2 S128x126x126x6x6 where
  offsetDims := [0]
  collapsedSliceDims := [1, 2]
  operandBatchingDims := []
  startIndicesBatchingDims := []
  startIndexMap := [1, 2]
  indexVectorDim := 4
  sliceSizes := ![128, 1, 1]
  wf := gather_S128x256x256_S126x126x6x6x2_S128x126x126x6x6_0_12_n_n_12_4_12811_wf

class Facts : Prop extends Facts₀ where

variable [Facts]
-- ==== Proof.Spec.lean ====
/-
  The value both programs compute, as one function of the argument array.

  The input is a batch of 128 single-channel 256×256 images.  A patch is a 6×6 window of an image; windows are
  taken at the even positions 0, 2, …, 250 on each axis (126 positions per axis, 126·126 = 15876 patches per image).
  Output entry (b, n, e) is pixel (2·(n / 126) + e / 6, 2·(n % 126) + e % 6) of image b: patch number n sits at window
  row n / 126 and window column n % 126, and e = 6·(row inside the patch) + (column inside the patch).
  No arithmetic is done on the pixels, so the function is stated for any element type.
-/
import Idealize.ShloMosaic.Lib.ValueIdx

namespace Cert.Patches

open Idealize.ShloMosaic Idealize.ShloMosaic.ValueIdx

variable {α : Type}

/-- Pixel (2·wr + pr, 2·wc + pc) of image `b`, for window position (wr, wc) and in-patch offset (pr, pc). -/
def pixel (x : (⟨4, ![128, 1, 256, 256]⟩ : Shape).Idx → α) (b : Fin 128) (wr wc : Fin 126) (pr pc : Fin 6) : α :=
  x (ix4 b (0 : Fin 1) (⟨2 * wr.val + pr.val, by omega⟩ : Fin 256) (⟨2 * wc.val + pc.val, by omega⟩ : Fin 256))

/-- Entry (b, n, e) of the result: window (n / 126, n % 126), offset (e / 6, e % 6). -/
def patchAt (x : (⟨4, ![128, 1, 256, 256]⟩ : Shape).Idx → α) (b : Fin 128) (n : Fin 15876) (e : Fin 36) : α :=
  pixel x b ⟨n.val / 126, by omega⟩ ⟨n.val % 126, by omega⟩ ⟨e.val / 6, by omega⟩ ⟨e.val % 6, by omega⟩

/-- The whole result array. -/
def patches (x : (⟨4, ![128, 1, 256, 256]⟩ : Shape).Idx → α) : (⟨3, ![128, 15876, 36]⟩ : Shape).Idx → α :=
  fun j => patchAt x (j 0) (j 1) (j 2)

theorem patches_ix3 (x : (⟨4, ![128, 1, 256, 256]⟩ : Shape).Idx → α) (b : Fin 128) (n : Fin 15876) (e : Fin 36) :
    patches x (ix3 b n e) = patchAt x b n e := rfl

end Cert.Patches
-- ==== Proof.KBody.lean ====
/-
  What one grid step of the kernel leaves in its output block, index by index.

  The step loads its input block x0 : [1, 2, 2, 128, 128] — the image of one batch entry split by row parity p and
  column parity q, x0[0, p, q, k, l] = image[2k + p, 2l + q] — and builds the [126, 126, 36] block of patches by
  concatenating 36 slices along the last axis.  Slice number e (e = 6·i + j for in-patch offset (i, j)) is the
  126×126 window of parity plane (i % 2, j % 2) that starts at (i / 2, j / 2).  Hence entry (r, c, e) of the block is
  x0[0, i % 2, j % 2, i / 2 + r, j / 2 + c] with i = e / 6, j = e % 6.
-/
import proofs.«118372_j63840393888313_2_alg».proof.Proof.Gen.KernelIdeal.Frame
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F] {α : Type}

/-- The offsets (parity plane p, q and window start) of slice number `e`. -/
def offs (e : Fin 36) : Fin 4 → Nat := ![(e.val / 6) % 2, (e.val % 6) % 2, (e.val / 6) / 2, (e.val % 6) / 2]

/-- Every such window fits in the [2, 2, 128, 128] planes. -/
theorem offs_slices (e : Fin 36) : S2x2x128x128.Slices (offs e) S1x1x126x126 := by
  revert e; decide

/-- Slice number `e` as the body builds it: the window, with its two unit axes dropped and a trailing unit axis added. -/
def pieceOf (v1 : S2x2x128x128.Idx → α) (e : Fin 36) : S126x126x1.Idx → α :=
  shapeCast S126x126x1 (shapeCast S126x126 (extractStridedSlice S1x1x126x126 (offs e) v1 (offs_slices e))
    shapeCasts_S1x1x126x126_S126x126) shapeCasts_S126x126_S126x126x1

/-- A slice read at (r, c, 0): the plane entry at the window's start plus (r, c). -/
theorem pieceOf_apply (v1 : S2x2x128x128.Idx → α) (e : Fin 36) (r c : Fin 126) :
    pieceOf v1 e (ix3 r c (0 : Fin 1))
      = v1 (ix4 (⟨(e.val / 6) % 2, by omega⟩ : Fin 2) (⟨(e.val % 6) % 2, by omega⟩ : Fin 2)
          (⟨(e.val / 6) / 2 + r.val, by omega⟩ : Fin 128) (⟨(e.val % 6) / 2 + c.val, by omega⟩ : Fin 128)) := by
  unfold pieceOf
  refine (shapeCast_apply _ _ (ix3 r c (0 : Fin 1)) (ix2 r c) ?_).trans ?_
  · rw [Shape.rowMajor_val_two, Shape.rowMajor_val_three]; show r.val * 126 + c.val = (r.val * 126 + c.val) * 1 + 0; omega
  refine (shapeCast_apply _ _ (ix2 r c) (ix4 (0 : Fin 1) (0 : Fin 1) r c) ?_).trans ?_
  · rw [Shape.rowMajor_val_two, Shape.rowMajor_val_four]; show ((0 * 1 + 0) * 126 + r.val) * 126 + c.val = r.val * 126 + c.val; omega
  refine extractStridedSlice_apply _ _ _ _ _ fun a => ?_
  match a with
  | ⟨0, _⟩ => show (e.val / 6) % 2 = (e.val / 6) % 2 + 0; omega
  | ⟨1, _⟩ => show (e.val % 6) % 2 = (e.val % 6) % 2 + 0; omega
  | ⟨2, _⟩ => rfl
  | ⟨3, _⟩ => rfl

/-! ## The concatenation -/

/-- The 36 slices all have shape [126, 126, 1], so they concatenate along the last axis into [126, 126, 36]. -/
theorem pieces_cat (v1 : S2x2x128x128.Idx → α) :
    Shape.Concatenates ((List.ofFn fun e : Fin 36 => (⟨S126x126x1, pieceOf v1 e⟩ : (s : Shape) × (s.Idx → α))).map (·.1))
      S126x126x36 2 := by
  rw [List.map_ofFn]
  show Shape.Concatenates (List.ofFn fun _ : Fin 36 => S126x126x1) S126x126x36 2
  decide

/-- The body's concatenated value is the concatenation of the family `pieceOf`: the body lists the same 36 slices
    one by one, in the order e = 0, …, 35. -/
theorem block_eq (x0 : Vec F S1x2x2x128x128 .f32) :
    k0_pay21 (k0_pay2 x0) (k0_pay3 x0) (k0_pay4 x0) (k0_pay5 x0) (k0_pay6 x0) (k0_pay7 x0) (k0_pay8 x0) (k0_pay9 x0) (k0_pay10 x0) (k0_pay11 x0) (k0_pay12 x0) (k0_pay13 x0) (k0_pay14 x0) (k0_pay15 x0) (k0_pay16 x0) (k0_pay17 x0) (k0_pay18 x0) (k0_pay19 x0) (k0_pay20 x0)
      = concatenate S126x126x36 2 (List.ofFn fun e : Fin 36 => (⟨S126x126x1, pieceOf (k0_pay2 x0) e⟩ : (s : Shape) × (s.Idx → Elt F .f32)))
          (pieces_cat _) := rfl

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- ENTRY (0, r, c, e) OF THE OUTPUT BLOCK after one grid step, from the input block `x0`. -/
theorem out_apply (x0 : Vec F S1x2x2x128x128 .f32) (r c : Fin 126) (e : Fin 36) :
    out0_1 x0 (ix4 (0 : Fin 1) r c e)
      = x0 (ix5 (0 : Fin 1) (⟨(e.val / 6) % 2, by omega⟩ : Fin 2) (⟨(e.val % 6) % 2, by omega⟩ : Fin 2)
          (⟨(e.val / 6) / 2 + r.val, by omega⟩ : Fin 128) (⟨(e.val % 6) / 2 + c.val, by omega⟩ : Fin 128)) := by
  unfold out0_1
  rw [View.canon_unit_zero hz4]
  simp only [View.ld_unit_zero (S := S1x2x2x128x128) hz5]
  unfold k0_pay1
  refine (shapeCast_apply _ _ (ix4 (0 : Fin 1) r c e) (ix3 r c e) ?_).trans ?_
  · rw [Shape.rowMajor_val_three, Shape.rowMajor_val_four]
    show (r.val * 126 + c.val) * 36 + e.val = ((0 * 126 + r.val) * 126 + c.val) * 36 + e.val
    omega
  refine (congrFun (block_eq x0) _).trans ?_
  refine (concatenate_ofFn_unit_apply (t := S126x126x36) (s₁ := S126x126x1) (2 : Fin 3) (fun e => pieceOf (k0_pay2 x0) e) _ rfl rfl
    (ix3 r c e) e rfl (ix3 r c (0 : Fin 1)) ?_).trans ?_
  · intro b hb
    match b with
    | ⟨0, _⟩ => rfl
    | ⟨1, _⟩ => rfl
    | ⟨2, _⟩ => exact absurd rfl hb
  rw [pieceOf_apply]
  unfold k0_pay2
  refine shapeCast_apply _ _ _ (ix5 (0 : Fin 1) _ _ _ _) ?_
  rw [Shape.rowMajor_val_four, Shape.rowMajor_val_five]
  show ((((0 * 2 + (e.val / 6) % 2) * 2 + (e.val % 6) % 2) * 128 + ((e.val / 6) / 2 + r.val)) * 128 + ((e.val % 6) / 2 + c.val))
    = ((((e.val / 6) % 2) * 2 + (e.val % 6) % 2) * 128 + ((e.val / 6) / 2 + r.val)) * 128 + ((e.val % 6) / 2 + c.val)
  omega

end Cert.KernelIdeal.Body

end
-- ==== Proof.KHost.lean ====
/-
  The kernel program's host side, read at an index.

  Before the grid runs, the host reshapes the input [128, 1, 256, 256] to [128, 256, 256], then to
  [128, 128, 2, 128, 2] (row y = 2k + p, column x = 2l + q) and transposes the parity axes to the front:
  planes[b, p, q, k, l] = input[b, 0, 2k + p, 2l + q].  After the grid, the [128, 126, 126, 36] array of patches is
  reshaped to [128, 15876, 36]: entry (b, n, e) is entry (b, n / 126, n % 126, e) of the array the grid wrote.
-/
import proofs.«118372_j63840393888313_2_alg».proof.Proof.Gen.KernelIdeal.Frame
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F] {α : Type}

/-- The three layout operations before the grid, as one function of the input array. -/
def planes (x : S128x1x256x256.Idx → α) : S128x2x2x128x128.Idx → α :=
  transpose S128x2x2x128x128 [0, 2, 4, 1, 3]
    (shapeCast S128x128x2x128x2 (shapeCast S128x256x256 x shapeCasts_S128x1x256x256_S128x256x256)
      shapeCasts_S128x256x256_S128x128x2x128x2)
    transposes_S128x128x2x128x2_S128x2x2x128x128_0_2_4_1_3

/-- planes[b, p, q, k, l] = input[b, 0, 2k + p, 2l + q]. -/
theorem planes_apply (x : S128x1x256x256.Idx → α) (b : Fin 128) (p q : Fin 2) (k l : Fin 128) :
    planes x (ix5 b p q k l)
      = x (ix4 b (0 : Fin 1) (⟨2 * k.val + p.val, by omega⟩ : Fin 256) (⟨2 * l.val + q.val, by omega⟩ : Fin 256)) := by
  unfold planes
  refine (transpose_apply _ _ _ (ix5 b p q k l) (ix5 b k p l q) fun a => ?_).trans ?_
  · match a with
    | ⟨0, _⟩ => rfl
    | ⟨1, _⟩ => rfl
    | ⟨2, _⟩ => rfl
    | ⟨3, _⟩ => rfl
    | ⟨4, _⟩ => rfl
  refine (shapeCast_apply _ _ (ix5 b k p l q)
    (ix3 b (⟨2 * k.val + p.val, by omega⟩ : Fin 256) (⟨2 * l.val + q.val, by omega⟩ : Fin 256)) ?_).trans ?_
  · rw [Shape.rowMajor_val_three, Shape.rowMajor_val_five]
    show (b.val * 256 + (2 * k.val + p.val)) * 256 + (2 * l.val + q.val)
      = (((b.val * 128 + k.val) * 2 + p.val) * 128 + l.val) * 2 + q.val
    omega
  refine shapeCast_apply _ _ _ (ix4 b (0 : Fin 1) _ _) ?_
  rw [Shape.rowMajor_val_three, Shape.rowMajor_val_four]
  show ((b.val * 1 + 0) * 256 + (2 * k.val + p.val)) * 256 + (2 * l.val + q.val)
    = (b.val * 256 + (2 * k.val + p.val)) * 256 + (2 * l.val + q.val)
  omega

variable (m : (ℓ : Loc nD τ sig) → Buf (Elt F) ℓ)

/-- When the grid starts, the array its input window reads holds `planes` of the input as launched. -/
theorem V_planes (c : Dev nD) :
    (V m c main_v2 : S128x2x2x128x128.Idx → Elt F .f32)
      = planes (m ((c : Thread nD τ).loc main_arg0) : S128x1x256x256.Idx → Elt F .f32) := by
  show StableHlo.after hostOps0 (fun b => m (c, b)) (Proc.devRef .tc main_v2) = _
  after_results
  rfl

/-- The reshape after the grid, read at an index. -/
theorem merge_apply (y : S128x126x126x36.Idx → α) (b : Fin 128) (n : Fin 15876) (e : Fin 36) :
    shapeCast S128x15876x36 y shapeCasts_S128x126x126x36_S128x15876x36 (ix3 b n e)
      = y (ix4 b (⟨n.val / 126, by omega⟩ : Fin 126) (⟨n.val % 126, by omega⟩ : Fin 126) e) := by
  refine shapeCast_apply _ _ _ _ ?_
  rw [Shape.rowMajor_val_three, Shape.rowMajor_val_four]
  show ((b.val * 126 + n.val / 126) * 126 + n.val % 126) * 36 + e.val = (b.val * 15876 + n.val) * 36 + e.val
  omega

end Cert.KernelIdeal.HostSide

end
-- ==== Proof.KValue.lean ====
/-
  The kernel program's result as one function of its input.

  Grid step t handles batch entry t: its input block is planes[t, ·, ·, ·, ·] and its output block is rows
  [t, ·, ·, ·] of the [128, 126, 126, 36] array of patches.  Entry (r, c, e) of the output block is
  x0[0, i % 2, j % 2, i / 2 + r, j / 2 + c] with i = e / 6, j = e % 6, and planes[t, p, q, k, l] is pixel
  (2k + p, 2l + q) of image t, so the entry is pixel (2(i / 2 + r) + i % 2, 2(j / 2 + c) + j % 2) = (2r + i, 2c + j).
  The 128 output blocks tile the array, and the reshape after the grid merges the two window axes.
-/
import proofs.«118372_j63840393888313_2_alg».proof.Proof.Spec
import proofs.«118372_j63840393888313_2_alg».proof.Proof.KBody
import proofs.«118372_j63840393888313_2_alg».proof.Proof.KHost
import proofs.«118372_j63840393888313_2_alg».proof.Proof.Gen.KernelIdeal.Frame
import Idealize.ShloMosaic.Lib.Pipeline.Value
import Idealize.ShloMosaic.Lib.ValueIdx

noncomputable section

namespace Cert.KernelIdeal.PatchValue

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Body Cert.KernelIdeal.HostSide

variable {F : FTy → Type} [FloatOps F] {α : Type}

/-- The array the grid writes: every patch of every image, the window's row and column still separate axes. -/
def grid4 (x : S128x1x256x256.Idx → α) : S128x126x126x36.Idx → α := fun i =>
  Cert.Patches.pixel x (i 0) (i 1) (i 2) ⟨(i 3).val / 6, by have h : (i 3).val < 36 := (i 3).isLt; omega⟩
    ⟨(i 3).val % 6, by omega⟩

/-- One grid step, for any input block that holds the parity planes of batch entry `tt`: its output block at (0, r, c, e)
    is the array of patches at (tt, r, c, e). -/
theorem step_value (X : S128x1x256x256.Idx → α) (x0 : S1x2x2x128x128.Idx → α) (tt : Fin 128)
    (hx0 : ∀ z : S1x2x2x128x128.Idx, x0 z = planes X (ix5 tt (z 1) (z 2) (z 3) (z 4)))
    (v : S1x126x126x36.Idx → α)
    (hv : ∀ (r c : Fin 126) (e : Fin 36), v (ix4 (0 : Fin 1) r c e)
      = x0 (ix5 (0 : Fin 1) (⟨(e.val / 6) % 2, by omega⟩ : Fin 2) (⟨(e.val % 6) % 2, by omega⟩ : Fin 2)
          (⟨(e.val / 6) / 2 + r.val, by omega⟩ : Fin 128) (⟨(e.val % 6) / 2 + c.val, by omega⟩ : Fin 128)))
    (r c : Fin 126) (e : Fin 36)
    (i : S128x126x126x36.Idx) (h0 : (i 0).val = tt.val) (h1 : (i 1).val = r.val) (h2 : (i 2).val = c.val)
    (h3 : (i 3).val = e.val) : v (ix4 (0 : Fin 1) r c e) = grid4 X i := by
  rw [hv, hx0]
  refine (planes_apply X tt _ _ _ _).trans ?_
  unfold grid4 Cert.Patches.pixel
  refine congrArg X (funext fun a => Fin.ext ?_)
  have e3 : e.val < 36 := e.isLt
  match a with
  | ⟨0, _⟩ => exact h0.symm
  | ⟨1, _⟩ => rfl
  | ⟨2, _⟩ =>
    show 2 * ((e.val / 6) / 2 + r.val) + (e.val / 6) % 2 = 2 * (i 1).val + (i 3).val / 6
    rw [h1, h3]; omega
  | ⟨3, _⟩ =>
    show 2 * ((e.val % 6) / 2 + c.val) + (e.val % 6) % 2 = 2 * (i 2).val + (i 3).val % 6
    rw [h2, h3]; omega

/-! ## The grid -/

variable (m : (ℓ : Loc nD τ sig) → Buf (Elt F) ℓ) (ρ : Dev nD → PrngReg)

/-- The index maps over the grid: step `t` reads input block (t, 0, 0, 0, 0) and writes output block (t, 0, 0, 0). -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

theorem step_lt (t : Fin cfg0.N) : t.val < 128 := by
  have h : cfg0.N = 128 := N_0
  have := t.isLt
  omega

/-- The input block of step `t` holds the parity planes of batch entry `t`. -/
theorem iblk_read (c : Dev nD) (t : Fin cfg0.N) (z : S1x2x2x128x128.Idx) :
    (iblk m c 0 t : S1x2x2x128x128.Idx → Elt F .f32) z
      = planes (m ((c : Thread nD τ).loc main_arg0) : S128x1x256x256.Idx → Elt F .f32)
          (ix5 (⟨t.val, step_lt t⟩ : Fin 128) (z 1) (z 2) (z 3) (z 4)) := by
  obtain ⟨e0, e1, e2, e3, e4, -⟩ := idx_facts t
  rw [← V_planes m c]
  unfold iblk
  rw [View.read_apply]
  show V m c main_v2 _ = V m c main_v2 _
  congr 1
  funext a
  apply Fin.ext
  match a with
  | ⟨0, _⟩ => show win0_0.index t (0 : Fin 5) * 1 + 1 * (z 0).val = t.val; have : (z 0).val < 1 := (z 0).isLt; omega
  | ⟨1, _⟩ => show win0_0.index t (1 : Fin 5) * 2 + 1 * (z 1).val = (z 1).val; omega
  | ⟨2, _⟩ => show win0_0.index t (2 : Fin 5) * 2 + 1 * (z 2).val = (z 2).val; omega
  | ⟨3, _⟩ => show win0_0.index t (3 : Fin 5) * 128 + 1 * (z 3).val = (z 3).val; omega
  | ⟨4, _⟩ => show win0_0.index t (4 : Fin 5) * 128 + 1 * (z 4).val = (z 4).val; omega

/-- WHAT STEP `t` WRITES BACK is block `t` of the array of patches of the input as launched. -/
theorem flushed_eq (c : Dev nD) (t : Fin cfg0.N) :
    (dats m 0 c).flushed 1 t = ((cfg0.win 1).blk t).view.read (Elt F)
      (grid4 (m ((c : Thread nD τ).loc main_arg0) : S128x1x256x256.Idx → Elt F .f32)) := by
  show (cfg0.win 1).cut (grid0.coords t) ((dats m 0 c).after 1 t) = _
  rw [after0_1]
  obtain ⟨-, -, -, -, -, e0, e1, e2, e3⟩ := idx_facts t
  funext y
  obtain ⟨r, cc, e, rfl⟩ : ∃ (r cc : Fin 126) (e : Fin 36), y = ix4 (0 : Fin 1) r cc e :=
    ⟨y 1, y 2, y 3, by
      funext a
      match a with
      | ⟨0, _⟩ => exact Fin.ext (by have : (y 0).val < 1 := (y 0).isLt; show (y 0).val = 0; omega)
      | ⟨1, _⟩ => rfl
      | ⟨2, _⟩ => rfl
      | ⟨3, _⟩ => rfl⟩
  show out0_1 (iblk m c 0 t) (ix4 (0 : Fin 1) r cc e)
    = grid4 (m ((c : Thread nD τ).loc main_arg0) : S128x1x256x256.Idx → Elt F .f32) (((cfg0.win 1).blk t).view.emb (ix4 (0 : Fin 1) r cc e))
  refine step_value (m ((c : Thread nD τ).loc main_arg0) : S128x1x256x256.Idx → Elt F .f32) (iblk m c 0 t)
    (⟨t.val, step_lt t⟩ : Fin 128) (iblk_read m c t) (out0_1 (iblk m c 0 t)) (out_apply (iblk m c 0 t)) r cc e
    (((cfg0.win 1).blk t).view.emb (ix4 (0 : Fin 1) r cc e)) ?_ ?_ ?_ ?_
  · show win0_1.index t (0 : Fin 4) * 1 + 1 * 0 = t.val; omega
  · show win0_1.index t (1 : Fin 4) * 126 + 1 * r.val = r.val; omega
  · show win0_1.index t (2 : Fin 4) * 126 + 1 * cc.val = cc.val; omega
  · show win0_1.index t (3 : Fin 4) * 36 + 1 * e.val = e.val; omega

/-- An index of the array is in step `t`'s output block iff each coordinate is in the block's range on its axis. -/
theorem mem_blk (t : Fin cfg0.N) (i : S128x126x126x36.Idx) :
    i ∈ ((cfg0.win 1).blk t).view.set ↔ ∀ a : Fin 4, win0_1.index t a * S1x126x126x36.size a ≤ (i a).val
      ∧ (i a).val < win0_1.index t a * S1x126x126x36.size a + S1x126x126x36.size a := by
  show i ∈ ((View.whole main_v3).slice (win0_1.rect t)).set ↔ _
  rw [View.set_slice_whole, Rect.mem_set_unit]
  exact Iff.rfl

/-- Every index (b, r, c, e) of the array lies in the output block of step `b`. -/
theorem cover (i : S128x126x126x36.Idx) :
    ∃ t : Fin cfg0.N, (cfg0.win 1).flush t = true ∧ i ∈ ((cfg0.win 1).blk t).view.set := by
  have hN : cfg0.N = 128 := N_0
  have h0 : (i 0).val < 128 := (i 0).isLt
  have h1 : (i 1).val < 126 := (i 1).isLt
  have h2 : (i 2).val < 126 := (i 2).isLt
  have h3 : (i 3).val < 36 := (i 3).isLt
  refine ⟨⟨(i 0).val, by omega⟩, flush0_1 _, ?_⟩
  obtain ⟨-, -, -, -, -, e0, e1, e2, e3⟩ := idx_facts ⟨(i 0).val, by omega⟩
  rw [mem_blk]
  intro a
  match a with
  | ⟨0, _⟩ =>
    show win0_1.index _ (0 : Fin 4) * 1 ≤ (i 0).val ∧ (i 0).val < win0_1.index _ (0 : Fin 4) * 1 + 1
    rw [e0]; show (i 0).val * 1 ≤ (i 0).val ∧ (i 0).val < (i 0).val * 1 + 1; omega
  | ⟨1, _⟩ =>
    show win0_1.index _ (1 : Fin 4) * 126 ≤ (i 1).val ∧ (i 1).val < win0_1.index _ (1 : Fin 4) * 126 + 126
    rw [e1]; omega
  | ⟨2, _⟩ =>
    show win0_1.index _ (2 : Fin 4) * 126 ≤ (i 2).val ∧ (i 2).val < win0_1.index _ (2 : Fin 4) * 126 + 126
    rw [e2]; omega
  | ⟨3, _⟩ =>
    show win0_1.index _ (3 : Fin 4) * 36 ≤ (i 3).val ∧ (i 3).val < win0_1.index _ (3 : Fin 4) * 36 + 36
    rw [e3]; omega

/-- THE ARRAY THE GRID LEAVES: the array of patches of the input as launched. -/
theorem final (c : Dev nD) : (dats m 0 c).arrAt 1 cfg0.N
    = grid4 (m ((c : Thread nD τ).loc main_arg0) : S128x1x256x256.Idx → Elt F .f32) :=
  (dats m 0 c).arrAt_eq_of_cover 1 _ (fun t _ => flushed_eq m c t) cover

/-- The reshape after the grid turns the array of patches into the specified result. -/
theorem merge_grid4 (x : S128x1x256x256.Idx → α) :
    shapeCast S128x15876x36 (grid4 x) shapeCasts_S128x126x126x36_S128x15876x36 = Cert.Patches.patches x := by
  funext j
  obtain ⟨b, n, e, rfl⟩ : ∃ (b : Fin 128) (n : Fin 15876) (e : Fin 36), j = ix3 b n e := ⟨j 0, j 1, j 2, eq_ix3 j⟩
  rw [merge_apply]
  rfl

/-- THE RESULT BUFFER after the whole program. -/
theorem result_eq (c : Dev nD) :
    (Pipeline.afterTail₀ cfgs (dats m) 0 (V0 m) [hostOps1] c main_v4 : S128x15876x36.Idx → Elt F .f32)
      = Cert.Patches.patches (m ((c : Thread nD τ).loc main_arg0) : S128x1x256x256.Idx → Elt F .f32) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v3)
      = grid4 (m ((c : Thread nD τ).loc main_arg0) : S128x1x256x256.Idx → Elt F .f32) from
    (Pipeline.withArrays_arr spec0 launch0.win.arr_inj c _ _ 1).trans (final m c)]
  exact merge_grid4 _

/-- The run, read: the result buffer holds the specified patches of the input, and the input is unchanged. -/
theorem run : θ_run defs (onTc (τ := τ) (main (F := F))) ⟨m, fun _ => 0, ρ⟩ fun r => ∀ c : Dev nD,
      r.2.mem ((c : Thread nD τ).loc main_v4)
        = Cert.Patches.patches (m ((c : Thread nD τ).loc main_arg0) : S128x1x256x256.Idx → Elt F .f32)
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c)⟩)
    (run_main m ρ)

end Cert.KernelIdeal.PatchValue

end
-- ==== Proof.RefDefs.lean ====
/-
  The reference program's result as one pure function of the argument array, in named pieces: the table of window
  starts, the 6-wide index rows built from it, their (never taken) negative-index wrap, the array of start indices,
  and the result — the argument with its unit axis dropped, gathered at the start indices, the patches flattened.
  Each definition is the composition of the program's own host operations, in the program's order.
-/
import proofs.«118372_j63840393888313_2_alg».proof.Proof.Gen.ReferenceIdeal

noncomputable section

namespace Cert.ReferenceIdeal.RefValue

open Cert.ReferenceIdeal Cert.ReferenceIdeal.Gen Idealize.ShloMosaic

/-- The window starts 0, 2, …, 250 as a rank-1 array: the literal table read in row-major order. -/
def cur : IVec S126 32 := fun i => lit0 (S126.rowMajor i)

/-- The [126, 6] array whose entry (w, p) is (start of window w) + p. -/
def winIdx : IVec S126x6 32 :=
  addi (broadcastInDim S126x6 ![0, 1] bcast_S126x1_S126x6_0_1 (broadcastInDim S126x1 ![0] bcast_S126_S126x1_0 cur))
    (broadcastInDim S126x6 ![0, 1] bcast_S1x6_S126x6_0_1 (broadcastInDim S1x6 ![1] bcast_S6_S1x6_1 (iotaInDim S6 32 0)))

/-- The row indices laid out as [126, 1, 6, 1]. -/
def rowsRaw : IVec S126x1x6x1 32 := broadcastInDim S126x1x6x1 ![0, 2] bcast_S126x6_S126x1x6x1_0_2 winIdx

/-- The column indices laid out as [1, 126, 1, 6]. -/
def colsRaw : IVec S1x126x1x6 32 := broadcastInDim S1x126x1x6 ![1, 3] bcast_S126x6_S1x126x1x6_1_3 winIdx

/-- The row indices after the wrap of negative indices (index < 0 ↦ index + 256). -/
def rowsW : IVec S126x1x6x1 32 :=
  select (cmpi .slt rowsRaw (broadcastInDim S126x1x6x1 ![] bcast_S_S126x1x6x1 (constantI S_ 32 0#32)))
    (addi rowsRaw (broadcastInDim S126x1x6x1 ![] bcast_S_S126x1x6x1 (constantI S_ 32 256#32))) rowsRaw

/-- The column indices after the wrap of negative indices. -/
def colsW : IVec S1x126x1x6 32 :=
  select (cmpi .slt colsRaw (broadcastInDim S1x126x1x6 ![] bcast_S_S1x126x1x6 (constantI S_ 32 0#32)))
    (addi colsRaw (broadcastInDim S1x126x1x6 ![] bcast_S_S1x126x1x6 (constantI S_ 32 256#32))) colsRaw

/-- The start indices [126, 126, 6, 6, 2]: component 0 the row index, component 1 the column index. -/
def startIdx : IVec S126x126x6x6x2 32 :=
  concatenate S126x126x6x6x2 4
    [⟨S126x126x6x6x1, broadcastInDim S126x126x6x6x1 ![0, 1, 2, 3] bcast_S126x126x6x6_S126x126x6x6x1_0_1_2_3
        (broadcastInDim S126x126x6x6 ![0, 1, 2, 3] bcast_S126x1x6x1_S126x126x6x6_0_1_2_3 rowsW)⟩,
     ⟨S126x126x6x6x1, broadcastInDim S126x126x6x6x1 ![0, 1, 2, 3] bcast_S126x126x6x6_S126x126x6x6x1_0_1_2_3
        (broadcastInDim S126x126x6x6 ![0, 1, 2, 3] bcast_S1x126x1x6_S126x126x6x6_0_1_2_3 colsW)⟩]
    concatenates_S126x126x6x6x1_S126x126x6x6x1_S126x126x6x6x2_d4

/-- The result as a function of the argument: drop the unit axis, gather at the start indices, flatten the patches. -/
def result {α : Type} (x : S128x1x256x256.Idx → α) : S128x15876x36.Idx → α :=
  shapeCast S128x15876x36
    (Host.gather gather_S128x256x256_S126x126x6x6x2_S128x126x126x6x6_0_12_n_n_12_4_12811
      (shapeCast S128x256x256 x shapeCasts_S128x1x256x256_S128x256x256) startIdx)
    shapeCasts_S128x126x126x6x6_S128x15876x36

end Cert.ReferenceIdeal.RefValue

end
-- ==== Proof.RefRun.lean ====
/-
  The reference program's run, read back as one pure function of the argument array.

  The program's @main is a straight line of 36 host operations.  They are listed here in order (`ops`), the program
  is shown to be that line (`main_eq`), and the library's theorem on straight lines gives: every weakly fair execution
  terminates with the result buffer holding the operations' composed term of the argument's launch contents (the
  function `result`, defined piece by piece in the module of definitions), and the argument unchanged.
-/
import proofs.«118372_j63840393888313_2_alg».proof.Proof.RefDefs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The program as a line of operations, and its run -/

/-- @main's 36 operations, in order. -/
abbrev ops : List (HloOp τ sig (Elt F)) :=
  [
    nullary main_c (fun i => lit0 (S126.rowMajor i)),
    nullary main_v0 (iotaInDim S6 32 0),
    unary main_c main_v1 (broadcastInDim S126x1 ![0] bcast_S126_S126x1_0 : (⟨S126, .i32⟩ : BufTy).Contents (Elt F) → (⟨S126x1, .i32⟩ : BufTy).Contents (Elt F)),
    unary main_v0 main_v2 (broadcastInDim S1x6 ![1] bcast_S6_S1x6_1 : (⟨S6, .i32⟩ : BufTy).Contents (Elt F) → (⟨S1x6, .i32⟩ : BufTy).Contents (Elt F)),
    unary main_v1 main_v3 (broadcastInDim S126x6 ![0, 1] bcast_S126x1_S126x6_0_1 : (⟨S126x1, .i32⟩ : BufTy).Contents (Elt F) → (⟨S126x6, .i32⟩ : BufTy).Contents (Elt F)),
    unary main_v2 main_v4 (broadcastInDim S126x6 ![0, 1] bcast_S1x6_S126x6_0_1 : (⟨S1x6, .i32⟩ : BufTy).Contents (Elt F) → (⟨S126x6, .i32⟩ : BufTy).Contents (Elt F)),
    binary main_v3 main_v4 main_v5 (addi : (⟨S126x6, .i32⟩ : BufTy).Contents (Elt F) → (⟨S126x6, .i32⟩ : BufTy).Contents (Elt F) → (⟨S126x6, .i32⟩ : BufTy).Contents (Elt F)),
    unary main_c main_v6 (broadcastInDim S126x1 ![0] bcast_S126_S126x1_0 : (⟨S126, .i32⟩ : BufTy).Contents (Elt F) → (⟨S126x1, .i32⟩ : BufTy).Contents (Elt F)),
    unary main_v0 main_v7 (broadcastInDim S1x6 ![1] bcast_S6_S1x6_1 : (⟨S6, .i32⟩ : BufTy).Contents (Elt F) → (⟨S1x6, .i32⟩ : BufTy).Contents (Elt F)),
    unary main_v6 main_v8 (broadcastInDim S126x6 ![0, 1] bcast_S126x1_S126x6_0_1 : (⟨S126x1, .i32⟩ : BufTy).Contents (Elt F) → (⟨S126x6, .i32⟩ : BufTy).Contents (Elt F)),
    unary main_v7 main_v9 (broadcastInDim S126x6 ![0, 1] bcast_S1x6_S126x6_0_1 : (⟨S1x6, .i32⟩ : BufTy).Contents (Elt F) → (⟨S126x6, .i32⟩ : BufTy).Contents (Elt F)),
    binary main_v8 main_v9 main_v10 (addi : (⟨S126x6, .i32⟩ : BufTy).Contents (Elt F) → (⟨S126x6, .i32⟩ : BufTy).Contents (Elt F) → (⟨S126x6, .i32⟩ : BufTy).Contents (Elt F)),
    reshape main_arg0 main_v11 rfl shapeCasts_S128x1x256x256_S128x256x256,
    unary main_v5 main_v12 (broadcastInDim S126x1x6x1 ![0, 2] bcast_S126x6_S126x1x6x1_0_2 : (⟨S126x6, .i32⟩ : BufTy).Contents (Elt F) → (⟨S126x1x6x1, .i32⟩ : BufTy).Contents (Elt F)),
    unary main_v10 main_v13 (broadcastInDim S1x126x1x6 ![1, 3] bcast_S126x6_S1x126x1x6_1_3 : (⟨S126x6, .i32⟩ : BufTy).Contents (Elt F) → (⟨S1x126x1x6, .i32⟩ : BufTy).Contents (Elt F)),
    nullary main_c_0 (constantI S_ 32 0#32),
    unary main_c_0 main_v14 (broadcastInDim S126x1x6x1 ![] bcast_S_S126x1x6x1 : (⟨S_, .i32⟩ : BufTy).Contents (Elt F) → (⟨S126x1x6x1, .i32⟩ : BufTy).Contents (Elt F)),
    binary main_v12 main_v14 main_v15 (cmpi .slt : (⟨S126x1x6x1, .i32⟩ : BufTy).Contents (Elt F) → (⟨S126x1x6x1, .i32⟩ : BufTy).Contents (Elt F) → (⟨S126x1x6x1, .i1⟩ : BufTy).Contents (Elt F)),
    nullary main_c_1 (constantI S_ 32 256#32),
    unary main_c_1 main_v16 (broadcastInDim S126x1x6x1 ![] bcast_S_S126x1x6x1 : (⟨S_, .i32⟩ : BufTy).Contents (Elt F) → (⟨S126x1x6x1, .i32⟩ : BufTy).Contents (Elt F)),
    binary main_v12 main_v16 main_v17 (addi : (⟨S126x1x6x1, .i32⟩ : BufTy).Contents (Elt F) → (⟨S126x1x6x1, .i32⟩ : BufTy).Contents (Elt F) → (⟨S126x1x6x1, .i32⟩ : BufTy).Contents (Elt F)),
    ternary main_v15 main_v17 main_v12 main_v18 (select : (⟨S126x1x6x1, .i1⟩ : BufTy).Contents (Elt F) → (⟨S126x1x6x1, .i32⟩ : BufTy).Contents (Elt F) → (⟨S126x1x6x1, .i32⟩ : BufTy).Contents (Elt F) → (⟨S126x1x6x1, .i32⟩ : BufTy).Contents (Elt F)),
    nullary main_c_2 (constantI S_ 32 0#32),
    unary main_c_2 main_v19 (broadcastInDim S1x126x1x6 ![] bcast_S_S1x126x1x6 : (⟨S_, .i32⟩ : BufTy).Contents (Elt F) → (⟨S1x126x1x6, .i32⟩ : BufTy).Contents (Elt F)),
    binary main_v13 main_v19 main_v20 (cmpi .slt : (⟨S1x126x1x6, .i32⟩ : BufTy).Contents (Elt F) → (⟨S1x126x1x6, .i32⟩ : BufTy).Contents (Elt F) → (⟨S1x126x1x6, .i1⟩ : BufTy).Contents (Elt F)),
    nullary main_c_3 (constantI S_ 32 256#32),
    unary main_c_3 main_v21 (broadcastInDim S1x126x1x6 ![] bcast_S_S1x126x1x6 : (⟨S_, .i32⟩ : BufTy).Contents (Elt F) → (⟨S1x126x1x6, .i32⟩ : BufTy).Contents (Elt F)),
    binary main_v13 main_v21 main_v22 (addi : (⟨S1x126x1x6, .i32⟩ : BufTy).Contents (Elt F) → (⟨S1x126x1x6, .i32⟩ : BufTy).Contents (Elt F) → (⟨S1x126x1x6, .i32⟩ : BufTy).Contents (Elt F)),
    ternary main_v20 main_v22 main_v13 main_v23 (select : (⟨S1x126x1x6, .i1⟩ : BufTy).Contents (Elt F) → (⟨S1x126x1x6, .i32⟩ : BufTy).Contents (Elt F) → (⟨S1x126x1x6, .i32⟩ : BufTy).Contents (Elt F) → (⟨S1x126x1x6, .i32⟩ : BufTy).Contents (Elt F)),
    unary main_v18 main_v24 (broadcastInDim S126x126x6x6 ![0, 1, 2, 3] bcast_S126x1x6x1_S126x126x6x6_0_1_2_3 : (⟨S126x1x6x1, .i32⟩ : BufTy).Contents (Elt F) → (⟨S126x126x6x6, .i32⟩ : BufTy).Contents (Elt F)),
    unary main_v23 main_v25 (broadcastInDim S126x126x6x6 ![0, 1, 2, 3] bcast_S1x126x1x6_S126x126x6x6_0_1_2_3 : (⟨S1x126x1x6, .i32⟩ : BufTy).Contents (Elt F) → (⟨S126x126x6x6, .i32⟩ : BufTy).Contents (Elt F)),
    unary main_v24 main_v26 (broadcastInDim S126x126x6x6x1 ![0, 1, 2, 3] bcast_S126x126x6x6_S126x126x6x6x1_0_1_2_3 : (⟨S126x126x6x6, .i32⟩ : BufTy).Contents (Elt F) → (⟨S126x126x6x6x1, .i32⟩ : BufTy).Contents (Elt F)),
    unary main_v25 main_v27 (broadcastInDim S126x126x6x6x1 ![0, 1, 2, 3] bcast_S126x126x6x6_S126x126x6x6x1_0_1_2_3 : (⟨S126x126x6x6, .i32⟩ : BufTy).Contents (Elt F) → (⟨S126x126x6x6x1, .i32⟩ : BufTy).Contents (Elt F)),
    binary main_v26 main_v27 main_v28 ((fun a b => concatenate S126x126x6x6x2 4 [⟨S126x126x6x6x1, a⟩, ⟨S126x126x6x6x1, b⟩] concatenates_S126x126x6x6x1_S126x126x6x6x1_S126x126x6x6x2_d4) : (⟨S126x126x6x6x1, .i32⟩ : BufTy).Contents (Elt F) → (⟨S126x126x6x6x1, .i32⟩ : BufTy).Contents (Elt F) → (⟨S126x126x6x6x2, .i32⟩ : BufTy).Contents (Elt F)),
    binary main_v11 main_v28 main_v29 ((fun x i => Host.gather gather_S128x256x256_S126x126x6x6x2_S128x126x126x6x6_0_12_n_n_12_4_12811 x i) : (⟨S128x256x256, .f32⟩ : BufTy).Contents (Elt F) → (⟨S126x126x6x6x2, .i32⟩ : BufTy).Contents (Elt F) → (⟨S128x126x126x6x6, .f32⟩ : BufTy).Contents (Elt F)),
    reshape main_v29 main_v30 rfl shapeCasts_S128x126x126x6x6_S128x15876x36 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., reshape_bufs_sub ..⟩

/-- The result buffer after the line, from contents `V`: the composed term of `V` at the argument. -/
theorem after_out (V : Valuation τ sig (Elt F)) :
    after (ops (F := F)) V (Proc.devRef .tc main_v30) = result (V (Proc.devRef .tc main_arg0)) := by
  after_results_simp
  rfl

/-- The argument buffer is written by no operation. -/
theorem after_arg (V : Valuation τ sig (Elt F)) :
    after (ops (F := F)) V (Proc.devRef .tc main_arg0) = V (Proc.devRef .tc main_arg0) := by
  after_results_simp

/-- On every device, for any float values, from any memory with zero counters: every weakly fair execution of @main
    terminates with the result buffer at `result` of the argument's launch contents and the argument unchanged. -/
theorem run_result (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30) = result (m ((c.tc : Thread nD τ).loc main_arg0))
      ∧ r.2.mem ((c.tc : Thread nD τ).loc main_arg0) = m ((c.tc : Thread nD τ).loc main_arg0) :=
  (θ_run defs _ _).mono (fun _ h c => ⟨(h c main_v30).trans (after_out _), (h c main_arg0).trans (after_arg _)⟩)
    (run_seq scopedRefs_eq scopedSems_eq defs main (fun _ => ops) main_eq (fun _ => ops_sub) m ρ)

end Cert.ReferenceIdeal.RefValue

end
-- ==== Proof.RefRead.lean ====
/-
  The reference's composed term, read index by index, is the patch function of the specification.

  Integer side: the literal table holds 2·a at position a, so a start index is the word 2·w + p with 2·w + p ≤ 255;
  such a word is not negative, so the wrap of negative indices leaves it alone, read signed it is 2·w + p, and the
  gather's clamp into [0, 255] leaves it alone too.  Layout side: each broadcast, the concatenation, the gather and the
  two reshapes are read at one index, outermost first.
-/
import proofs.«118372_j63840393888313_2_alg».proof.Proof.RefDefs
import proofs.«118372_j63840393888313_2_alg».proof.Proof.Spec
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Words -/

/-- A natural number below 2³¹, as a 32-bit word read signed, is itself. -/
theorem toInt_ofNat_small (k : Nat) (h : k < 2 ^ 31) : (BitVec.ofNat 32 k).toInt = (k : Int) := by
  rw [BitVec.toInt_ofNat']
  exact Int.bmod_eq_of_le (by omega) (by omega)

/-- Such a word is not below zero in the signed order. -/
theorem cmpi_slt_zero (k : Nat) (h : k < 2 ^ 31) : IntOp.cmpi .slt (BitVec.ofNat 32 k) 0#32 = 0#1 := by
  have h1 := toInt_ofNat_small k h
  have h2 : ¬ ((k : Int) < 0) := by omega
  simp [IntOp.cmpi, BitVec.slt, h1, h2]

/-- The wrap of negative indices leaves a word below 2³¹ alone. -/
theorem wrap_word (k : Nat) (h : k < 2 ^ 31) (y : BitVec 32) :
    Scalar.select (IntOp.cmpi .slt (BitVec.ofNat 32 k) 0#32) y (BitVec.ofNat 32 k) = BitVec.ofNat 32 k := by
  rw [cmpi_slt_zero k h, select_zero]

/-- Read signed and clamped into [0, 255], a word k ≤ 255 is k. -/
theorem clamp_word (k : Nat) (h : k ≤ 255) : min (BitVec.ofNat 32 k).toInt.toNat 255 = k := by
  rw [toInt_ofNat_small k (by omega)]
  simp only [Int.toNat_natCast]
  omega

/-! ## The index arrays -/

/-- The literal table holds 2·a at position a. -/
theorem lit0_eq : ∀ a : Fin 126, lit0 a = BitVec.ofNat 32 (2 * a.val) := by decide

theorem cur_apply (a : Fin 126) : cur (ix1 a) = BitVec.ofNat 32 (2 * a.val) := by
  have h : (S126.rowMajor (ix1 a) : Fin 126) = a := Fin.ext (Shape.rowMajor_val_one _)
  show lit0 (S126.rowMajor (ix1 a)) = _
  rw [h, lit0_eq]

theorem winIdx_apply (w : Fin 126) (p : Fin 6) : winIdx (ix2 w p) = BitVec.ofNat 32 (2 * w.val + p.val) := by
  have h1 : broadcastInDim S126x6 ![0, 1] bcast_S126x1_S126x6_0_1 (broadcastInDim S126x1 ![0] bcast_S126_S126x1_0 cur) (ix2 w p)
      = BitVec.ofNat 32 (2 * w.val) := by
    refine (broadcastInDim_apply _ _ _ _ (ix2 w (0 : Fin 1)) (fun a => match a with | ⟨0, _⟩ => rfl | ⟨1, _⟩ => rfl)).trans ?_
    refine (broadcastInDim_apply _ _ _ _ (ix1 w) (fun a => match a with | ⟨0, _⟩ => rfl)).trans ?_
    exact cur_apply w
  have h2 : broadcastInDim S126x6 ![0, 1] bcast_S1x6_S126x6_0_1 (broadcastInDim S1x6 ![1] bcast_S6_S1x6_1 (iotaInDim S6 32 0)) (ix2 w p)
      = BitVec.ofNat 32 p.val := by
    refine (broadcastInDim_apply _ _ _ _ (ix2 (0 : Fin 1) p) (fun a => match a with | ⟨0, _⟩ => rfl | ⟨1, _⟩ => rfl)).trans ?_
    refine (broadcastInDim_apply _ _ _ _ (ix1 p) (fun a => match a with | ⟨0, _⟩ => rfl)).trans ?_
    rfl
  exact (congrArg₂ (· + ·) h1 h2).trans (BitVec.ofNat_add _ _).symm

theorem rowsRaw_apply (wr : Fin 126) (pr : Fin 6) :
    rowsRaw (ix4 wr (0 : Fin 1) pr (0 : Fin 1)) = BitVec.ofNat 32 (2 * wr.val + pr.val) :=
  (broadcastInDim_apply _ _ _ _ (ix2 wr pr) (fun a => match a with | ⟨0, _⟩ => rfl | ⟨1, _⟩ => rfl)).trans (winIdx_apply wr pr)

theorem colsRaw_apply (wc : Fin 126) (pc : Fin 6) :
    colsRaw (ix4 (0 : Fin 1) wc (0 : Fin 1) pc) = BitVec.ofNat 32 (2 * wc.val + pc.val) :=
  (broadcastInDim_apply _ _ _ _ (ix2 wc pc) (fun a => match a with | ⟨0, _⟩ => rfl | ⟨1, _⟩ => rfl)).trans (winIdx_apply wc pc)

/-- The wrapped row index at (wr, ·, pr, ·) is still 2·wr + pr: it is not negative. -/
theorem rowsW_apply (wr : Fin 126) (pr : Fin 6) :
    rowsW (ix4 wr (0 : Fin 1) pr (0 : Fin 1)) = BitVec.ofNat 32 (2 * wr.val + pr.val) := by
  have hr := rowsRaw_apply wr pr
  show Scalar.select (IntOp.cmpi .slt (rowsRaw (ix4 wr (0 : Fin 1) pr (0 : Fin 1))) 0#32)
      (IntOp.addi (rowsRaw (ix4 wr (0 : Fin 1) pr (0 : Fin 1))) 256#32) (rowsRaw (ix4 wr (0 : Fin 1) pr (0 : Fin 1))) = _
  rw [hr]
  exact wrap_word _ (by omega) _

/-- The wrapped column index at (·, wc, ·, pc) is still 2·wc + pc. -/
theorem colsW_apply (wc : Fin 126) (pc : Fin 6) :
    colsW (ix4 (0 : Fin 1) wc (0 : Fin 1) pc) = BitVec.ofNat 32 (2 * wc.val + pc.val) := by
  have hc := colsRaw_apply wc pc
  show Scalar.select (IntOp.cmpi .slt (colsRaw (ix4 (0 : Fin 1) wc (0 : Fin 1) pc)) 0#32)
      (IntOp.addi (colsRaw (ix4 (0 : Fin 1) wc (0 : Fin 1) pc)) 256#32) (colsRaw (ix4 (0 : Fin 1) wc (0 : Fin 1) pc)) = _
  rw [hc]
  exact wrap_word _ (by omega) _

/-- Component 0 of the start index of window (wr, wc), offset (pr, pc): the row 2·wr + pr. -/
theorem startIdx_row (wr wc : Fin 126) (pr pc : Fin 6) :
    startIdx (ix5 wr wc pr pc (0 : Fin 2)) = BitVec.ofNat 32 (2 * wr.val + pr.val) := by
  unfold startIdx
  refine (concatenate_pair_apply_left (t := S126x126x6x6x2) (s₁ := S126x126x6x6x1) (s₂ := S126x126x6x6x1) 4 _ _ _
    (ix5 wr wc pr pc (0 : Fin 2)) rfl (ix5 wr wc pr pc (0 : Fin 1))
    (fun b => match b with | ⟨0, _⟩ => rfl | ⟨1, _⟩ => rfl | ⟨2, _⟩ => rfl | ⟨3, _⟩ => rfl | ⟨4, _⟩ => rfl)).trans ?_
  refine (broadcastInDim_apply _ _ _ _ (ix4 wr wc pr pc)
    (fun a => match a with | ⟨0, _⟩ => rfl | ⟨1, _⟩ => rfl | ⟨2, _⟩ => rfl | ⟨3, _⟩ => rfl)).trans ?_
  refine (broadcastInDim_apply _ _ _ _ (ix4 wr (0 : Fin 1) pr (0 : Fin 1))
    (fun a => match a with | ⟨0, _⟩ => rfl | ⟨1, _⟩ => rfl | ⟨2, _⟩ => rfl | ⟨3, _⟩ => rfl)).trans ?_
  exact rowsW_apply wr pr

/-- Component 1 of the same start index: the column 2·wc + pc. -/
theorem startIdx_col (wr wc : Fin 126) (pr pc : Fin 6) :
    startIdx (ix5 wr wc pr pc (1 : Fin 2)) = BitVec.ofNat 32 (2 * wc.val + pc.val) := by
  unfold startIdx
  refine (concatenate_pair_apply_right (t := S126x126x6x6x2) (s₁ := S126x126x6x6x1) (s₂ := S126x126x6x6x1) 4 _ _ _
    (ix5 wr wc pr pc (1 : Fin 2)) rfl rfl (ix5 wr wc pr pc (0 : Fin 1))
    (fun b => match b with
      | ⟨0, _⟩ => fun _ => rfl | ⟨1, _⟩ => fun _ => rfl | ⟨2, _⟩ => fun _ => rfl | ⟨3, _⟩ => fun _ => rfl
      | ⟨4, _⟩ => fun h => absurd rfl h) rfl).trans ?_
  refine (broadcastInDim_apply _ _ _ _ (ix4 wr wc pr pc)
    (fun a => match a with | ⟨0, _⟩ => rfl | ⟨1, _⟩ => rfl | ⟨2, _⟩ => rfl | ⟨3, _⟩ => rfl)).trans ?_
  refine (broadcastInDim_apply _ _ _ _ (ix4 (0 : Fin 1) wc (0 : Fin 1) pc)
    (fun a => match a with | ⟨0, _⟩ => rfl | ⟨1, _⟩ => rfl | ⟨2, _⟩ => rfl | ⟨3, _⟩ => rfl)).trans ?_
  exact colsW_apply wc pc

/-! ## The gather, read at an index -/

local notation "G" => gather_S128x256x256_S126x126x6x6x2_S128x126x126x6x6_0_12_n_n_12_4_12811

/-- The gather at result index (b, wr, wc, pr, pc): axis 0 of the operand is the offset axis, read at b; axes 1 and 2
    are collapsed and read at components 0 and 1 of the start index at (wr, wc, pr, pc), each read signed and clamped
    into [0, 255].  The caller names the two clamped values as r and c. -/
theorem gather_apply {α : Type} (x : S128x256x256.Idx → α) (idx : IVec S126x126x6x6x2 32)
    (b : Fin 128) (wr wc : Fin 126) (pr pc : Fin 6) (r c : Fin 256)
    (hr : min (idx (ix5 wr wc pr pc (0 : Fin 2))).toInt.toNat 255 = r.val)
    (hc : min (idx (ix5 wr wc pr pc (1 : Fin 2))).toInt.toNat 255 = c.val) :
    Host.gather G x idx (ix5 b wr wc pr pc) = x (ix3 b r c) := by
  have e0 : (G).start (ix5 b wr wc pr pc) idx (0 : Fin 3) + (G).batchCoord (ix5 b wr wc pr pc) (0 : Fin 3)
      + (G).offCoord (ix5 b wr wc pr pc) (0 : Fin 3) = b.val := by
    have hs : (G).start (ix5 b wr wc pr pc) idx (0 : Fin 3) = 0 := by
      unfold GatherDims.start; exact dif_neg (by decide)
    have ho : (G).offCoord (ix5 b wr wc pr pc) (0 : Fin 3) = b.val := by
      unfold GatherDims.offCoord; rw [dif_pos (by decide)]; rfl
    rw [GatherDims.batchCoord_eq_zero G _ _ List.not_mem_nil, hs, ho]
    omega
  have e1 : (G).start (ix5 b wr wc pr pc) idx (1 : Fin 3) + (G).batchCoord (ix5 b wr wc pr pc) (1 : Fin 3)
      + (G).offCoord (ix5 b wr wc pr pc) (1 : Fin 3) = r.val := by
    rw [GatherDims.batchCoord_eq_zero G _ _ List.not_mem_nil,
      GatherDims.offCoord_eq_zero G _ _ (fun h => ((GatherDims.mem_sKept G _).mp h).1 (by decide))]
    simp only [Nat.add_zero]
    unfold GatherDims.start
    rw [dif_pos (show (1 : Fin 3) ∈ (G).startIndexMap from by decide)]
    have hsi : (G).siIdx (ix5 b wr wc pr pc) ⟨List.idxOf (1 : Fin 3) (G).startIndexMap,
        List.idxOf_lt_length_iff.2 (by decide)⟩ = ix5 wr wc pr pc (0 : Fin 2) := by
      funext k; refine Fin.ext ?_
      match k with
      | ⟨0, _⟩ => rfl
      | ⟨1, _⟩ => rfl
      | ⟨2, _⟩ => rfl
      | ⟨3, _⟩ => rfl
      | ⟨4, _⟩ => rfl
    rw [hsi]; exact hr
  have e2 : (G).start (ix5 b wr wc pr pc) idx (2 : Fin 3) + (G).batchCoord (ix5 b wr wc pr pc) (2 : Fin 3)
      + (G).offCoord (ix5 b wr wc pr pc) (2 : Fin 3) = c.val := by
    rw [GatherDims.batchCoord_eq_zero G _ _ List.not_mem_nil,
      GatherDims.offCoord_eq_zero G _ _ (fun h => ((GatherDims.mem_sKept G _).mp h).1 (by decide))]
    simp only [Nat.add_zero]
    unfold GatherDims.start
    rw [dif_pos (show (2 : Fin 3) ∈ (G).startIndexMap from by decide)]
    have hsi : (G).siIdx (ix5 b wr wc pr pc) ⟨List.idxOf (2 : Fin 3) (G).startIndexMap,
        List.idxOf_lt_length_iff.2 (by decide)⟩ = ix5 wr wc pr pc (1 : Fin 2) := by
      funext k; refine Fin.ext ?_
      match k with
      | ⟨0, _⟩ => rfl
      | ⟨1, _⟩ => rfl
      | ⟨2, _⟩ => rfl
      | ⟨3, _⟩ => rfl
      | ⟨4, _⟩ => rfl
    rw [hsi]; exact hc
  unfold Host.gather
  congr 1
  funext a
  refine Fin.ext ?_
  match a with
  | ⟨0, _⟩ => exact e0
  | ⟨1, _⟩ => exact e1
  | ⟨2, _⟩ => exact e2

/-! ## The two reshapes, read at an index -/

/-- Dropping the unit axis: [128, 256, 256] at (b, r, c) reads [128, 1, 256, 256] at (b, 0, r, c). -/
theorem dropUnit_apply {α : Type} (x : S128x1x256x256.Idx → α) (b : Fin 128) (r c : Fin 256) :
    shapeCast S128x256x256 x shapeCasts_S128x1x256x256_S128x256x256 (ix3 b r c) = x (ix4 b (0 : Fin 1) r c) :=
  shapeCast_apply _ _ _ _ (by
    rw [Shape.rowMajor_val_four, Shape.rowMajor_val_three]
    show ((b.val * 1 + 0) * 256 + r.val) * 256 + c.val = (b.val * 256 + r.val) * 256 + c.val
    omega)

/-- Flattening the patches: [128, 15876, 36] at (b, n, e) reads [128, 126, 126, 6, 6] at (b, n / 126, n % 126, e / 6, e % 6). -/
theorem flatten_apply {α : Type} (y : S128x126x126x6x6.Idx → α) (b : Fin 128) (n : Fin 15876) (e : Fin 36) :
    shapeCast S128x15876x36 y shapeCasts_S128x126x126x6x6_S128x15876x36 (ix3 b n e)
      = y (ix5 b (⟨n.val / 126, by omega⟩ : Fin 126) (⟨n.val % 126, by omega⟩ : Fin 126)
            (⟨e.val / 6, by omega⟩ : Fin 6) (⟨e.val % 6, by omega⟩ : Fin 6)) :=
  shapeCast_apply _ _ _ _ (by
    rw [Shape.rowMajor_val_five, Shape.rowMajor_val_three]
    show (((b.val * 126 + n.val / 126) * 126 + n.val % 126) * 6 + e.val / 6) * 6 + e.val % 6 = (b.val * 15876 + n.val) * 36 + e.val
    omega)

/-! ## The result -/

/-- Entry (b, n, e) of the reference's result is the specification's. -/
theorem result_apply {α : Type} (x : S128x1x256x256.Idx → α) (b : Fin 128) (n : Fin 15876) (e : Fin 36) :
    result x (ix3 b n e) = Cert.Patches.patchAt x b n e := by
  have hn := n.isLt
  have he := e.isLt
  unfold result
  refine (flatten_apply _ b n e).trans ?_
  refine (gather_apply _ startIdx b ⟨n.val / 126, by omega⟩ ⟨n.val % 126, by omega⟩ ⟨e.val / 6, by omega⟩ ⟨e.val % 6, by omega⟩
    ⟨2 * (n.val / 126) + e.val / 6, by omega⟩ ⟨2 * (n.val % 126) + e.val % 6, by omega⟩
    (by rw [startIdx_row]; exact clamp_word _ (by show 2 * (n.val / 126) + e.val / 6 ≤ 255; omega))
    (by rw [startIdx_col]; exact clamp_word _ (by show 2 * (n.val % 126) + e.val % 6 ≤ 255; omega))).trans ?_
  exact dropUnit_apply x b _ _

/-- The reference's result is the specification's patch function. -/
theorem result_eq {α : Type} (x : S128x1x256x256.Idx → α) : result x = Cert.Patches.patches x := by
  funext j
  obtain ⟨b, n, e, rfl⟩ : ∃ (b : Fin 128) (n : Fin 15876) (e : Fin 36), j = ix3 b n e := ⟨j 0, j 1, j 2, eq_ix3 j⟩
  rw [Cert.Patches.patches_ix3]
  exact result_apply x b n e

end Cert.ReferenceIdeal.RefValue

end
-- ==== Proof.RefValue.lean ====
/-
  The reference side of the certificate: every weakly fair execution of the reference program terminates with its
  result buffer holding the specification's patch function of the argument's launch contents, the argument unchanged.
  The run gives the program's composed term (`result`); read index by index that term is `Cert.Patches.patches`.
-/
import proofs.«118372_j63840393888313_2_alg».proof.Proof.RefRun
import proofs.«118372_j63840393888313_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- For any float values: the result buffer ends at the patch function of the argument, the argument unchanged. -/
theorem run_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30) = Cert.Patches.patches (m ((c.tc : Thread nD τ).loc main_arg0))
      ∧ r.2.mem ((c.tc : Thread nD τ).loc main_arg0) = m ((c.tc : Thread nD τ).loc main_arg0) :=
  (θ_run defs _ _).mono (fun _ h c => ⟨(h c).1.trans (result_eq _), (h c).2⟩) (run_result m ρ)

/-- The same at the ideal instance. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = Cert.Patches.patches (m ((c.tc : Thread nD τ).loc main_arg0))
      ∧ r.2.mem ((c.tc : Thread nD τ).loc main_arg0) = m ((c.tc : Thread nD τ).loc main_arg0) :=
  run_any m ρ

end Cert.ReferenceIdeal.RefValue

end
-- ==== Proof.lean ====
/-
  The certificate's claim for the patch-extraction kernel.

  Both programs take a batch of 128 single-channel 256×256 images and return, for each image, its 126·126 = 15876
  patches of 6×6 pixels taken at the even window positions, each patch flattened to 36 entries:
  result[b, 126·wr + wc, 6·pr + pc] = input[b, 0, 2·wr + pr, 2·wc + pc] (`Cert.Patches.patches`).
  The kernel program splits each image into its four row/column parity planes on the host, so that a window taken
  with stride 2 becomes a contiguous window of one plane, and assembles the patches from 36 such windows per grid
  step (`Cert.KernelIdeal.PatchValue.run`); the reference computes the pixel coordinates as integer arrays and
  gathers (`Cert.ReferenceIdeal.RefValue.run`).  No arithmetic is done on the pixels, so the two results are equal
  entry by entry for every input, and the precondition is never opened.
-/
import proofs.«118372_j63840393888313_2_alg».proof.Defs
import proofs.«118372_j63840393888313_2_alg».proof.Proof.Gen.Kernel
import proofs.«118372_j63840393888313_2_alg».proof.Proof.Gen.Kernel.Frame
import proofs.«118372_j63840393888313_2_alg».proof.Proof.Gen.KernelIdeal
import proofs.«118372_j63840393888313_2_alg».proof.Proof.Gen.KernelIdeal.Frame
import proofs.«118372_j63840393888313_2_alg».proof.Proof.Gen.ReferenceIdeal
import proofs.«118372_j63840393888313_2_alg».proof.Proof.Gen.Pre_finite_inputs
import proofs.«118372_j63840393888313_2_alg».proof.Proof.Spec
import proofs.«118372_j63840393888313_2_alg».proof.Proof.KValue
import proofs.«118372_j63840393888313_2_alg».proof.Proof.RefValue

noncomputable section

namespace Cert.Proof

open Idealize.ShloMosaic Idealize.SL.Sem

/-- The word-level kernel program runs and leaves its argument as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its argument as launched: its run, with the result's value dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing, so there is nothing to preserve. -/
theorem preserves : Cert.preserves_Kernel_KernelIdeal := trivial

/-- From inputs that agree, the kernel program and the reference both end with the patches of the input
    (`Cert.Patches.patches`) in their result buffers: the same array. -/
theorem algebraic : Cert.algebraic_KernelIdeal_ReferenceIdeal := by
  intro m ρ m' ρ' _ hagree
  refine ⟨fun c => Cert.Patches.patches (m ((c.tc : Thread Cert.KernelIdeal.nD Cert.KernelIdeal.τ).loc Cert.KernelIdeal.main_arg0)),
    Cert.KernelIdeal.PatchValue.run (F := Ideal) m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
